-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S64x1024x2048 : Shape := ⟨3, ![64, 1024, 2048]⟩
abbrev S64x1024x1024 : Shape := ⟨3, ![64, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S64x1024x2048 : S_.BroadcastsInDim S64x1024x2048 (![] : Fin 0 → Fin S64x1024x2048.rank)
  reducesTo_S64x1024x2048_S_d0_1_2 : S64x1024x2048.ReducesTo [0, 1, 2] S_
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_v13 : IVec S_ 1) (main_v16 : IVec S64x1024x1024 1) : IVec S_ 1 :=
  let main_c_5 : IVec S_ 1 := constantI S_ 1 1#1
  let main_v17 : IVec S_ 1 := (fun x v => Host.reduce IntOp.andi x v reducesTo_S64x1024x1024_S_d0_1_2 h_S_) main_v16 main_c_5
  let main_v18 : IVec S_ 1 := andi main_v13 main_v17
  main_v18

def fn {F : FTy → Type} [FloatOps F] (main_arg0 : FVec F S8192x1024 .f32) (main_arg1 : IVec S8192x2 32) (main_arg2 : FVec F S8192x2 .f32) (main_arg3 : FVec F S64x1024x2048 .f32) (main_arg4 : FVec F S64x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S64x1024x2048 .f32 := Host.absf main_arg3
  let main_cst_2 : FVec F S_ .f32 := constant S_ .f32 0x7F800000#32
  let main_v10 : FVec F S64x1024x2048 .f32 := broadcastInDim S64x1024x2048 ![] bcast_S_S64x1024x2048 main_cst_2
  let main_v11 : IVec S64x1024x2048 1 := cmpf .olt main_v9 main_v10
  let main_c_3 : IVec S_ 1 := constantI S_ 1 1#1
  let main_v12 : IVec S_ 1 := (fun x v => Host.reduce IntOp.andi x v reducesTo_S64x1024x2048_S_d0_1_2 h_S_) main_v11 main_c_3
  let main_v13 : IVec S_ 1 := andi main_v8 main_v12
  let main_v14 : FVec F S64x1024x1024 .f32 := Host.absf main_arg4
  let main_cst_4 : FVec F S_ .f32 := constant S_ .f32 0x7F800000#32
  let main_v15 : FVec F S64x1024x1024 .f32 := broadcastInDim S64x1024x1024 ![] bcast_S_S64x1024x1024 main_cst_4
  let main_v16 : IVec S64x1024x1024 1 := cmpf .olt main_v14 main_v15
  fn_part1 (F := F) main_v13 main_v16
-- ==== Kernel.lean ====
abbrev S8192x1024 : Shape := ⟨2, ![8192, 1024]⟩
abbrev S8192x2 : Shape := ⟨2, ![8192, 2]⟩
abbrev S64x1024x2048 : Shape := ⟨3, ![64, 1024, 2048]⟩
abbrev S64x1024x1024 : Shape := ⟨3, ![64, 1024, 1024]⟩
abbrev S16384 : Shape := ⟨1, ![16384]⟩
abbrev S8192x2x1024 : Shape := ⟨3, ![8192, 2, 1024]⟩
abbrev S16384x1024 : Shape := ⟨2, ![16384, 1024]⟩
abbrev S16384x1 : Shape := ⟨2, ![16384, 1]⟩
abbrev S1x64 : Shape := ⟨2, ![1, 64]⟩
abbrev S16384x64 : Shape := ⟨2, ![16384, 64]⟩
abbrev S_ : Shape := ⟨0, ![]⟩
abbrev S64x512x1024 : Shape := ⟨3, ![64, 512, 1024]⟩
abbrev S16384x2 : Shape := ⟨2, ![16384, 2]⟩
abbrev S1x256x1024 : Shape := ⟨3, ![1, 256, 1024]⟩
abbrev S1x1024x2048 : Shape := ⟨3, ![1, 1024, 2048]⟩
abbrev S1x1024x1024 : Shape := ⟨3, ![1, 1024, 1024]⟩
abbrev S256x1024 : Shape := ⟨2, ![256, 1024]⟩
abbrev S1024x2048 : Shape := ⟨2, ![1024, 2048]⟩
abbrev S1024x1024 : Shape := ⟨2, ![1024, 1024]⟩

abbrev nBuf : Space → Nat
  | .hbm => 80
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x2, .i32⟩
  | .hbm, ⟨2, _⟩ => ⟨S8192x2, .f32⟩
  | .hbm, ⟨3, _⟩ => ⟨S64x1024x2048, .f32⟩
  | .hbm, ⟨4, _⟩ => ⟨S64x1024x1024, .f32⟩
  | .hbm, ⟨5, _⟩ => ⟨S16384, .i32⟩
  | .hbm, ⟨6, _⟩ => ⟨S8192x2x1024, .f32⟩
  | .hbm, ⟨7, _⟩ => ⟨S16384x1024, .f32⟩
  | .hbm, ⟨8, _⟩ => ⟨S16384x1, .i32⟩
  | .hbm, ⟨9, _⟩ => ⟨S1x64, .i32⟩
  | .hbm, ⟨10, _⟩ => ⟨S16384x64, .i32⟩
  | .hbm, ⟨11, _⟩ => ⟨S16384x64, .i32⟩
  | .hbm, ⟨12, _⟩ => ⟨S16384x64, .i1⟩
  | .hbm, ⟨13, _⟩ => ⟨S16384x64, .i32⟩
  | .hbm, ⟨14, _⟩ => ⟨S_, .i32⟩
  | .hbm, ⟨15, _⟩ => ⟨S_, .i32⟩
  | .hbm, ⟨16, _⟩ => ⟨S16384x64, .i32⟩
  | .hbm, ⟨17, _⟩ => ⟨S16384x64, .i32⟩
  | .hbm, ⟨18, _⟩ => ⟨S_, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S16384, .f32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S_, .f32⟩
  | .hbm, ⟨31, _⟩ => ⟨S64x512x1024, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x1, .i32⟩
  | .hbm, ⟨51, _⟩ => ⟨S16384x2, .i32⟩
  | .hbm, ⟨52, _⟩ => ⟨S64x512x1024, .f32⟩
  | .hbm, ⟨53, _⟩ => ⟨S64x512x1024, .f32⟩
  | .hbm, ⟨54, _⟩ => ⟨S16384, .f32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .i32⟩
  | .hbm, ⟨69, _⟩ => ⟨S16384x1, .i32⟩
  | .hbm, ⟨70, _⟩ => ⟨S16384x1, .i32⟩
  | .hbm, ⟨71, _⟩ => ⟨S16384x2, .i32⟩
  | .hbm, ⟨72, _⟩ => ⟨S16384x1024, .f32⟩
  | .hbm, ⟨73, _⟩ => ⟨S16384, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S8192x2x1024, .f32⟩
  | .hbm, ⟨78, _⟩ => ⟨S_, .f32⟩
  | .hbm, ⟨79, _⟩ => ⟨S8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x256x1024, .f32⟩
  | .local _ .vmem, ⟨7, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_call1_call0_c : Ref sig .tc := ⟨.hbm, 14, rfl⟩
abbrev main_call1_call0_v0 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192x2_S16384 : S8192x2.ShapeCasts S16384
  bcast_S8192x1024_S8192x2x1024_0_2 : S8192x1024.BroadcastsInDim S8192x2x1024 (![0, 2] : Fin 2 → Fin S8192x2x1024.rank)
  shapeCasts_S8192x2x1024_S16384x1024 : S8192x2x1024.ShapeCasts S16384x1024
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  bcast_S_S_ : S_.BroadcastsInDim S_ (![] : Fin 0 → Fin S_.rank)
  reduceWindows_S16384x64_S16384x64_w16384s1p16383_0_w1s1p0_0 : S16384x64.ReduceWindows (![16384, 1] : Fin 2 → Nat) ![1, 1] ![16383, 0] ![0, 0] S16384x64
  h_S_ : 0 < S_.numel
  reducesTo_S16384x64_S16384_d1 : S16384x64.ReducesTo [1] S16384
  bcast_S_S16384 : S_.BroadcastsInDim S16384 (![] : Fin 0 → Fin S16384.rank)
  bcast_S_S64x512x1024 : S_.BroadcastsInDim S64x512x1024 (![] : Fin 0 → Fin S64x512x1024.rank)
  bcast_S16384x1_S16384x1024_0_1 : S16384x1.BroadcastsInDim S16384x1024 (![0, 1] : Fin 2 → Fin S16384x1024.rank)
  concatenates_S16384x1_S16384x1_S16384x2_d1 : Shape.Concatenates [S16384x1, S16384x1] S16384x2 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x2048_o0_0_S1024x1024 : S1024x2048.Slices ![0, 0] S1024x1024
  slices_S1024x2048_o0_1024_S1024x1024 : S1024x2048.Slices ![0, 1024] S1024x1024
  shapeCasts_S256x1024_S1x256x1024 : S256x1024.ShapeCasts S1x256x1024
  shapeCasts_S16384x1024_S8192x2x1024 : S16384x1024.ShapeCasts S8192x2x1024
  reducesTo_S8192x2x1024_S8192x1024_d1 : S8192x2x1024.ReducesTo [1] S8192x1024
  scatter_S64x512x1024_S16384x2_S16384x1024_1_01_01_1_wf : ScatterDims.WF S64x512x1024 S16384x2 S16384x1024 [1] [0, 1] [0, 1] 1
  dot_S256x1024_S1024x1024_S256x1024_1_0_0_1_n_n_wf : DotDims.WF S256x1024 S1024x1024 S256x1024 [1] [0] [0] [1] [] []
  gather_S64x512x1024_S16384x2_S16384x1024_1_01_n_n_01_1_111024_wf : GatherDims.WF S64x512x1024 S16384x2 S16384x1024 [1] [0, 1] [] [0, 1] [] 1 ![1, 1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x512x1024.size a
  hwx0_0 : ∀ i : grid0.Coords, EltTy.bits .f32 = 32 ∨ (Rect.block (s := S64x512x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S64x1024x2048.size a
  hwx0_1 : ∀ i : grid0.Coords, EltTy.bits .f32 = 32 ∨ (Rect.block (s := S64x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x512x1024.size a
  hwx0_3 : ∀ i : grid0.Coords, EltTy.bits .f32 = 32 ∨ (Rect.block (s := S64x512x1024) S1x256x1024.size (cc0_transform_3 i) (hinb0_3 i)).WholeWords (EltTy.packing .f32)

variable [Facts₀]

def scatter_S64x512x1024_S16384x2_S16384x1024_1_01_01_1 : ScatterDims S64x512x1024 S16384x2 S16384x1024 where
  updateWindowDims := [1]
  insertedWindowDims := [0, 1]
  scatterDimsToOperandDims := [0, 1]
  indexVectorDim := 1
  wf := scatter_S64x512x1024_S16384x2_S16384x1024_1_01_01_1_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def gather_S64x512x1024_S16384x2_S16384x1024_1_01_n_n_01_1_111024 : GatherDims S64x512x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S64x512x1024_S16384x2_S16384x1024_1_01_n_n_01_1_111024_wf

abbrev win0_0 : Pipeline.Window sig grid0 :=
  Pipeline.Window.ofSpec (Memref.whole main_v31) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2 : Shape := ⟨2, ![8192, 2]⟩
abbrev S64x1024x2048 : Shape := ⟨3, ![64, 1024, 2048]⟩
abbrev S64x1024x1024 : Shape := ⟨3, ![64, 1024, 1024]⟩
abbrev S16384 : Shape := ⟨1, ![16384]⟩
abbrev S8192x2x1024 : Shape := ⟨3, ![8192, 2, 1024]⟩
abbrev S16384x1024 : Shape := ⟨2, ![16384, 1024]⟩
abbrev S16384x1 : Shape := ⟨2, ![16384, 1]⟩
abbrev S1x64 : Shape := ⟨2, ![1, 64]⟩
abbrev S16384x64 : Shape := ⟨2, ![16384, 64]⟩
abbrev S_ : Shape := ⟨0, ![]⟩
abbrev S64x512x1024 : Shape := ⟨3, ![64, 512, 1024]⟩
abbrev S16384x2 : Shape := ⟨2, ![16384, 2]⟩
abbrev S64x512x2048 : Shape := ⟨3, ![64, 512, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2, .i32⟩
  | .hbm, ⟨2, _⟩ => ⟨S8192x2, .f32⟩
  | .hbm, ⟨3, _⟩ => ⟨S64x1024x2048, .f32⟩
  | .hbm, ⟨4, _⟩ => ⟨S64x1024x1024, .f32⟩
  | .hbm, ⟨5, _⟩ => ⟨S16384, .i32⟩
  | .hbm, ⟨6, _⟩ => ⟨S8192x2x1024, .f32⟩
  | .hbm, ⟨7, _⟩ => ⟨S16384x1024, .f32⟩
  | .hbm, ⟨8, _⟩ => ⟨S16384x1, .i32⟩
  | .hbm, ⟨9, _⟩ => ⟨S1x64, .i32⟩
  | .hbm, ⟨10, _⟩ => ⟨S16384x64, .i32⟩
  | .hbm, ⟨11, _⟩ => ⟨S16384x64, .i32⟩
  | .hbm, ⟨12, _⟩ => ⟨S16384x64, .i1⟩
  | .hbm, ⟨13, _⟩ => ⟨S16384x64, .i32⟩
  | .hbm, ⟨14, _⟩ => ⟨S_, .i32⟩
  | .hbm, ⟨15, _⟩ => ⟨S_, .i32⟩
  | .hbm, ⟨16, _⟩ => ⟨S16384x64, .i32⟩
  | .hbm, ⟨17, _⟩ => ⟨S16384x64, .i32⟩
  | .hbm, ⟨18, _⟩ => ⟨S_, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S16384, .f32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S_, .f32⟩
  | .hbm, ⟨31, _⟩ => ⟨S64x512x1024, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x1, .i32⟩
  | .hbm, ⟨51, _⟩ => ⟨S16384x2, .i32⟩
  | .hbm, ⟨52, _⟩ => ⟨S64x512x1024, .f32⟩
  | .hbm, ⟨53, _⟩ => ⟨S64x512x2048, .f32⟩
  | .hbm, ⟨54, _⟩ => ⟨S64x512x1024, .f32⟩
  | .hbm, ⟨55, _⟩ => ⟨S64x512x1024, .f32⟩
  | .hbm, ⟨56, _⟩ => ⟨S64x512x1024, .f32⟩
  | .hbm, ⟨57, _⟩ => ⟨S64x512x1024, .f32⟩
  | .hbm, ⟨58, _⟩ => ⟨S_, .f32⟩
  | .hbm, ⟨59, _⟩ => ⟨S64x512x1024, .f32⟩
  | .hbm, ⟨60, _⟩ => ⟨S64x512x1024, .f32⟩
  | .hbm, ⟨61, _⟩ => ⟨S_, .f32⟩
  | .hbm, ⟨62, _⟩ => ⟨S64x512x1024, .f32⟩
  | .hbm, ⟨63, _⟩ => ⟨S64x512x1024, .f32⟩
  | .hbm, ⟨64, _⟩ => ⟨S64x512x1024, .f32⟩
  | .hbm, ⟨65, _⟩ => ⟨S64x512x1024, .f32⟩
  | .hbm, ⟨66, _⟩ => ⟨S64x512x1024, .f32⟩
  | .hbm, ⟨67, _⟩ => ⟨S16384, .f32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S16384x1, .i32⟩
  | .hbm, ⟨83, _⟩ => ⟨S16384x1, .i32⟩
  | .hbm, ⟨84, _⟩ => ⟨S16384x2, .i32⟩
  | .hbm, ⟨85, _⟩ => ⟨S16384x1024, .f32⟩
  | .hbm, ⟨86, _⟩ => ⟨S16384, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S8192x2x1024, .f32⟩
  | .hbm, ⟨91, _⟩ => ⟨S_, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_call1_call0_c : Ref sig .tc := ⟨.hbm, 14, rfl⟩
abbrev main_call1_call0_v0 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_7 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_9 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩

abbrev nD : Nat := 1
abbrev τ : Topo := Topo.v7x

variable {F : FTy → Type} [FloatOps F]

class Facts₀ : Prop where
  shapeCasts_S8192x2_S16384 : S8192x2.ShapeCasts S16384
  bcast_S8192x1024_S8192x2x1024_0_2 : S8192x1024.BroadcastsInDim S8192x2x1024 (![0, 2] : Fin 2 → Fin S8192x2x1024.rank)
  shapeCasts_S8192x2x1024_S16384x1024 : S8192x2x1024.ShapeCasts S16384x1024
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  bcast_S_S_ : S_.BroadcastsInDim S_ (![] : Fin 0 → Fin S_.rank)
  reduceWindows_S16384x64_S16384x64_w16384s1p16383_0_w1s1p0_0 : S16384x64.ReduceWindows (![16384, 1] : Fin 2 → Nat) ![1, 1] ![16383, 0] ![0, 0] S16384x64
  h_S_ : 0 < S_.numel
  reducesTo_S16384x64_S16384_d1 : S16384x64.ReducesTo [1] S16384
  bcast_S_S16384 : S_.BroadcastsInDim S16384 (![] : Fin 0 → Fin S16384.rank)
  bcast_S_S64x512x1024 : S_.BroadcastsInDim S64x512x1024 (![] : Fin 0 → Fin S64x512x1024.rank)
  bcast_S16384x1_S16384x1024_0_1 : S16384x1.BroadcastsInDim S16384x1024 (![0, 1] : Fin 2 → Fin S16384x1024.rank)
  concatenates_S16384x1_S16384x1_S16384x2_d1 : Shape.Concatenates [S16384x1, S16384x1] S16384x2 1
  slices_S64x512x2048_S64x512x1024_0_0_0 : S64x512x2048.Slices ![0, 0, 0] S64x512x1024
  slices_S64x512x2048_S64x512x1024_0_0_1024 : S64x512x2048.Slices ![0, 0, 1024] S64x512x1024
  shapeCasts_S16384x1024_S8192x2x1024 : S16384x1024.ShapeCasts S8192x2x1024
  reducesTo_S8192x2x1024_S8192x1024_d1 : S8192x2x1024.ReducesTo [1] S8192x1024
  scatter_S64x512x1024_S16384x2_S16384x1024_1_01_01_1_wf : ScatterDims.WF S64x512x1024 S16384x2 S16384x1024 [1] [0, 1] [0, 1] 1
  dot_S64x512x1024_S64x1024x2048_S64x512x2048_2_1_1_2_0_0_wf : DotDims.WF S64x512x1024 S64x1024x2048 S64x512x2048 [2] [1] [1] [2] [0] [0]
  dot_S64x512x1024_S64x1024x1024_S64x512x1024_2_1_1_2_0_0_wf : DotDims.WF S64x512x1024 S64x1024x1024 S64x512x1024 [2] [1] [1] [2] [0] [0]
  gather_S64x512x1024_S16384x2_S16384x1024_1_01_n_n_01_1_111024_wf : GatherDims.WF S64x512x1024 S16384x2 S16384x1024 [1] [0, 1] [] [0, 1] [] 1 ![1, 1, 1024]

variable [Facts₀]

def scatter_S64x512x1024_S16384x2_S16384x1024_1_01_01_1 : ScatterDims S64x512x1024 S16384x2 S16384x1024 where
  updateWindowDims := [1]
  insertedWindowDims := [0, 1]
  scatterDimsToOperandDims := [0, 1]
  indexVectorDim := 1
  wf := scatter_S64x512x1024_S16384x2_S16384x1024_1_01_01_1_wf
def dot_S64x512x1024_S64x1024x2048_S64x512x2048_2_1_1_2_0_0 : DotDims S64x512x1024 S64x1024x2048 S64x512x2048 where
  lhsContracting := [2]
  rhsContracting := [1]
  lhsNonContracting := [1]
  rhsNonContracting := [2]
  lhsBatch := [0]
  rhsBatch := [0]
  wf := dot_S64x512x1024_S64x1024x2048_S64x512x2048_2_1_1_2_0_0_wf
def dot_S64x512x1024_S64x1024x1024_S64x512x1024_2_1_1_2_0_0 : DotDims S64x512x1024 S64x1024x1024 S64x512x1024 where
  lhsContracting := [2]
  rhsContracting := [1]
  lhsNonContracting := [1]
  rhsNonContracting := [2]
  lhsBatch := [0]
  rhsBatch := [0]
  wf := dot_S64x512x1024_S64x1024x1024_S64x512x1024_2_1_1_2_0_0_wf
def gather_S64x512x1024_S16384x2_S16384x1024_1_01_n_n_01_1_111024 : GatherDims S64x512x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S64x512x1024_S16384x2_S16384x1024_1_01_n_n_01_1_111024_wf

class Facts : Prop extends Facts₀ where

variable [Facts]
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.FfnSpec.lean ====
/-
  The per-expert gated feed-forward as one function of the three arrays it reads. For expert e and slot r of that
  expert's buffer, the gate and up pre-activations at hidden unit f are the products of row (e, r) of the expert buffers
  with columns f and 1024 + f of expert e's gate/up weights; the activation is gate · σ(gate) · up with σ the logistic
  function 1 / (1 + exp (−x)) on the extended reals; the output at column c is the product of the activation row with
  column c of expert e's down weights. Experts never mix, and a slot's output depends on that slot's row alone.
-/
import Idealize.ShloMosaic.PureOps.Ideal.Laws
import Idealize.ShloMosaic.Lib.ValueIdx

noncomputable section

namespace Cert.FfnSpec

open Idealize.ShloMosaic Idealize.ShloMosaic.ValueIdx
open scoped BigOperators

/-- The expert buffers [64, 512, 1024], the gate/up weights [64, 1024, 2048], the down weights [64, 1024, 1024]. -/
abbrev SXd : Shape := ⟨3, ![64, 512, 1024]⟩
abbrev SGu : Shape := ⟨3, ![64, 1024, 2048]⟩
abbrev SDp : Shape := ⟨3, ![64, 1024, 1024]⟩

/-- Hidden unit `f` as a column of the gate half, and of the up half, of the gate/up weights. -/
abbrev gateCol (f : Fin 1024) : Fin 2048 := ⟨0 + f.val, by have := f.isLt; omega⟩
abbrev upCol (f : Fin 1024) : Fin 2048 := ⟨1024 + f.val, by have := f.isLt; omega⟩

/-- The gate pre-activation of slot `(e, r)` at hidden unit `f`. -/
def gate (xd : FVec Ideal SXd .f32) (gu : FVec Ideal SGu .f32) (e : Fin 64) (r : Fin 512) (f : Fin 1024) : EReal :=
  ∑ d : Fin 1024, xd (ix3 e r d) * gu (ix3 e d (gateCol f))

/-- The up pre-activation of slot `(e, r)` at hidden unit `f`. -/
def up (xd : FVec Ideal SXd .f32) (gu : FVec Ideal SGu .f32) (e : Fin 64) (r : Fin 512) (f : Fin 1024) : EReal :=
  ∑ d : Fin 1024, xd (ix3 e r d) * gu (ix3 e d (upCol f))

/-- The gated activation: gate · σ(gate) · up. -/
def act (xd : FVec Ideal SXd .f32) (gu : FVec Ideal SGu .f32) (e : Fin 64) (r : Fin 512) (f : Fin 1024) : EReal :=
  gate xd gu e r f * Ideal.logistic (gate xd gu e r f) * up xd gu e r f

/-- The output of slot `(e, r)` at column `c`. -/
def ffnAt (xd : FVec Ideal SXd .f32) (gu : FVec Ideal SGu .f32) (dp : FVec Ideal SDp .f32) (e : Fin 64) (r : Fin 512)
    (c : Fin 1024) : EReal :=
  ∑ f : Fin 1024, act xd gu e r f * dp (ix3 e f c)

/-- The expert outputs as one array. -/
def ffn (xd : FVec Ideal SXd .f32) (gu : FVec Ideal SGu .f32) (dp : FVec Ideal SDp .f32) : FVec Ideal SXd .f32 :=
  fun i => ffnAt xd gu dp (i 0) (i 1) (i 2)

theorem ffn_apply (xd : FVec Ideal SXd .f32) (gu : FVec Ideal SGu .f32) (dp : FVec Ideal SDp .f32) (e : Fin 64) (r : Fin 512)
    (c : Fin 1024) : ffn xd gu dp (ix3 e r c) = ffnAt xd gu dp e r c := rfl

end Cert.FfnSpec

end
-- ==== Proof.KernelBlock.lean ====
/-
  The kernel body's arithmetic, read at an index of its output block. With x0 the [1, 256, 1024] block of expert-buffer
  rows, x1 the expert's [1, 1024, 2048] gate/up weights and x2 its [1, 1024, 1024] down weights, the stored block at
  (u, r, c) is the sum over hidden units f of gate · σ(gate) · up at (r, f) times x2 at (0, f, c), where gate and up at
  (r, f) are the products of row r of x0 with columns f and 1024 + f of x1. The roundings to the 16-bit format on the way
  into the three products are the identity at the extended reals, and the leading unit axis only renames indices.
-/
import proofs.«106433_j68186900791359_1_alg».proof.Proof.Gen.KernelIdeal.Skeleton
import proofs.«106433_j68186900791359_1_alg».proof.Proof.LibTiles
import proofs.«106433_j68186900791359_1_alg».proof.Proof.FfnSpec
import Idealize.ShloMosaic.Lib.ValueLayout

noncomputable section

namespace Cert.KernelIdeal.Block

open Cert.KernelIdeal Cert.KernelIdeal.Gen Idealize.ShloMosaic Idealize.ShloMosaic.ValueIdx Cert.FfnSpec
open scoped BigOperators

/-- The body's three matrix products share one set of dimension numbers: rows by the shared axis times the shared
    axis by columns. -/
abbrev D : DotDims S256x1024 S1024x1024 S256x1024 := dot_S256x1024_S1024x1024_S256x1024_1_0_0_1_n_n

theorem D_rank : D.contr.rank = 1 := rfl
theorem D_size : D.contr.size ⟨0, by rw [D_rank]; omega⟩ = 1024 := rfl
theorem D_l0 : ∀ (i : S256x1024.Idx) (q : D.contr.Idx), (D.lhsIdx i q 0).val = (i 0).val := fun _ _ => rfl
theorem D_l1 : ∀ (i : S256x1024.Idx) (q : D.contr.Idx), (D.lhsIdx i q 1).val = (q ⟨0, by rw [D_rank]; omega⟩).val :=
  fun i q => D.lhsIdx_val_of_single rfl i q
theorem D_r0 : ∀ (i : S256x1024.Idx) (q : D.contr.Idx), (D.rhsIdx i q 0).val = (q ⟨0, by rw [D_rank]; omega⟩).val :=
  fun i q => D.rhsIdx_val_of_single rfl i q
theorem D_r1 : ∀ (i : S256x1024.Idx) (q : D.contr.Idx), (D.rhsIdx i q 1).val = (i 1).val := fun _ _ => rfl

/-- Gate and up pre-activations, the activation and the output of one block, from the three blocks the body loads. -/
def bgate (x0 : Vec Ideal S1x256x1024 .f32) (x1 : Vec Ideal S1x1024x2048 .f32) (r : Fin 256) (f : Fin 1024) : EReal :=
  ∑ d : Fin 1024, x0 (ix3 (0 : Fin 1) r d) * x1 (ix3 (0 : Fin 1) d (gateCol f))
def bup (x0 : Vec Ideal S1x256x1024 .f32) (x1 : Vec Ideal S1x1024x2048 .f32) (r : Fin 256) (f : Fin 1024) : EReal :=
  ∑ d : Fin 1024, x0 (ix3 (0 : Fin 1) r d) * x1 (ix3 (0 : Fin 1) d (upCol f))
def bact (x0 : Vec Ideal S1x256x1024 .f32) (x1 : Vec Ideal S1x1024x2048 .f32) (r : Fin 256) (f : Fin 1024) : EReal :=
  bgate x0 x1 r f * Ideal.logistic (bgate x0 x1 r f) * bup x0 x1 r f
def bffn (x0 : Vec Ideal S1x256x1024 .f32) (x1 : Vec Ideal S1x1024x2048 .f32) (x2 : Vec Ideal S1x1024x1024 .f32)
    (r : Fin 256) (c : Fin 1024) : EReal :=
  ∑ f : Fin 1024, bact x0 x1 r f * x2 (ix3 (0 : Fin 1) f c)

/-- A product of the row block with a column block of the weights starting at column `o`, at (r, f): the sum over the
    shared axis of x0 at (0, r, d) times x1 at (0, d, o + f). -/
theorem half_apply (o : ℕ) (x0 : Vec Ideal S1x256x1024 .f32) (x1 : Vec Ideal S1x1024x2048 .f32)
    (h0 : S1x256x1024.ShapeCasts S256x1024) (h1 : S1x1024x2048.ShapeCasts S1024x2048) (hb : FTy.bits .bf16 < FTy.bits .f32)
    (hsl : S1024x2048.Slices ![0, o] S1024x1024) (r : Fin 256) (f : Fin 1024) (hf : o + f.val < 2048) :
    matmul D none (truncf .bf16 (shapeCast S256x1024 x0 h0) hb)
        (extractStridedSlice S1024x1024 ![0, o] (truncf .bf16 (shapeCast S1024x2048 x1 h1) hb) hsl)
        (constant (F := Ideal) S256x1024 .f32 0x00000000#32) (ix2 r f)
      = ∑ d : Fin 1024, x0 (ix3 (0 : Fin 1) r d) * x1 (ix3 (0 : Fin 1) d ⟨o + f.val, hf⟩) := by
  refine (Cert.LibTiles.matmul_plain_apply D D_rank D_size D_l0 D_l1 D_r0 D_r1 none _ _ r f).trans ?_
  refine Finset.sum_congr rfl fun d _ => ?_
  exact congrArg₂ (· * ·) (shapeCast_1ab_ab_apply x0 h0 r d)
    ((Cert.LibTiles.sliceCols_apply o (truncf (F := Ideal) .bf16 (shapeCast S1024x2048 x1 h1) hb) hsl d f hf).trans
      (shapeCast_1ab_ab_apply x1 h1 d ⟨o + f.val, hf⟩))

/-- The stored block at (u, r, c). -/
theorem pay_apply (x0 : Vec Ideal S1x256x1024 .f32) (x1 : Vec Ideal S1x1024x2048 .f32) (x2 : Vec Ideal S1x1024x1024 .f32)
    (u : Fin 1) (r : Fin 256) (c : Fin 1024) :
    k0_pay1 x0 x1 x2 (ix3 u r c) = bffn x0 x1 x2 r c := by
  unfold k0_pay1
  refine (shapeCast_ab_1ab_apply _ _ u r c).trans ?_
  refine (Cert.LibTiles.matmul_plain_apply D D_rank D_size D_l0 D_l1 D_r0 D_r1 none _ _ r c).trans ?_
  refine Finset.sum_congr rfl fun f _ => ?_
  refine congrArg₂ (· * ·) ?_ (shapeCast_1ab_ab_apply x2 _ f c)
  have hg := half_apply 0 x0 x1 shapeCasts_S1x256x1024_S256x1024 shapeCasts_S1x1024x2048_S1024x2048 bitsLt_bf16_f32
    slices_S1024x2048_o0_0_S1024x1024 r f (by have := f.isLt; omega)
  have hu := half_apply 1024 x0 x1 shapeCasts_S1x256x1024_S256x1024 shapeCasts_S1x1024x2048_S1024x2048 bitsLt_bf16_f32
    slices_S1024x2048_o0_1024_S1024x1024 r f (by have := f.isLt; omega)
  unfold bact bgate bup
  exact congrArg₂ (· * ·) (congrArg₂ (· * ·) hg (congrArg Ideal.logistic hg)) hu

end Cert.KernelIdeal.Block

end
-- ==== Proof.KernelFinal.lean ====
/-
  From blocks to the array. Grid point t = 2e + h works on expert e and on half h of that expert's 512 slots: it loads
  rows 256h … 256h + 255 of expert e's buffer and the expert's two weight matrices whole, and writes back rows
  256h … 256h + 255 of expert e's output. What it writes is that block of the one function `ffn` of the three arrays as the
  region finds them, because a slot's output depends only on that slot's row and on its expert's weights. The 128 blocks
  tile the [64, 512, 1024] output, so after the region the output array is `ffn` everywhere.
-/
import proofs.«106433_j68186900791359_1_alg».proof.Proof.Gen.KernelIdeal.Frame
import proofs.«106433_j68186900791359_1_alg».proof.Proof.KernelBlock
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.ShloMosaic.ValueIdx
  Idealize.SL.Sem Cert.FfnSpec Cert.KernelIdeal.Block
open Idealize.ShloMosaic.Pipeline (Dat Cfg Window)
open scoped BigOperators

variable (m : (ℓ : Loc nD τ sig) → Buf (Elt Ideal) ℓ)

theorem zero3 : (![0, 0, 0] : Fin 3 → Nat) = fun _ => 0 := funext fun a => by fin_cases a <;> rfl

/-- The printed index maps over the grid: point t is expert t / 2 and half t % 2; the row and output windows move with
    both, the weight windows with the expert alone. -/
theorem idx_facts : ∀ t : Fin cfg0.N,
    win0_3.index t (0 : Fin 3) = t.val / 2 ∧ win0_3.index t (1 : Fin 3) = t.val % 2 ∧ win0_3.index t (2 : Fin 3) = 0
    ∧ win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- A block's feed-forward is the array's, when the three blocks are the rows of slot range R's block and expert e's
    weights. -/
theorem bffn_eq (xd : FVec Ideal SXd .f32) (gu : FVec Ideal SGu .f32) (dp : FVec Ideal SDp .f32)
    (x0 : Vec Ideal S1x256x1024 .f32) (x1 : Vec Ideal S1x1024x2048 .f32) (x2 : Vec Ideal S1x1024x1024 .f32)
    (e : Fin 64) (R : Fin 512) (r : Fin 256) (c : Fin 1024)
    (h0 : ∀ d, x0 (ix3 (0 : Fin 1) r d) = xd (ix3 e R d))
    (h1 : ∀ d j, x1 (ix3 (0 : Fin 1) d j) = gu (ix3 e d j))
    (h2 : ∀ f, x2 (ix3 (0 : Fin 1) f c) = dp (ix3 e f c)) :
    bffn x0 x1 x2 r c = ffnAt xd gu dp e R c := by
  unfold bffn ffnAt bact act bgate bup gate up
  simp only [h0, h1, h2]

/-- Row r of point t's row block is slot 256 (t % 2) + r of expert t / 2. -/
theorem rows_read (c : Dev nD) (t : Fin cfg0.N) (r : Fin 256) (d : Fin 1024) (e : Fin 64) (R : Fin 512)
    (he : e.val = t.val / 2) (hR : R.val = t.val % 2 * 256 + r.val) :
    iblk m c 0 t (ix3 (0 : Fin 1) r d) = V m c main_v31 (ix3 e R d) := by
  obtain ⟨-, -, -, b0, b1, b2, -⟩ := idx_facts t
  have hd : d.val < 1024 := d.isLt
  show V m c main_v31 (((cfg0.win 0).blk t).view.emb (ix3 (0 : Fin 1) r d)) = _
  refine congrArg (V m c main_v31) (funext fun a => Fin.ext ?_)
  match a with
  | ⟨0, _⟩ => show win0_0.index t (0 : Fin 3) * 1 + 1 * 0 = e.val; omega
  | ⟨1, _⟩ => show win0_0.index t (1 : Fin 3) * 256 + 1 * r.val = R.val; omega
  | ⟨2, _⟩ => show win0_0.index t (2 : Fin 3) * 1024 + 1 * d.val = d.val; omega

/-- Point t's gate/up block is expert t / 2's matrix. -/
theorem gu_read (c : Dev nD) (t : Fin cfg0.N) (d : Fin 1024) (j : Fin 2048) (e : Fin 64) (he : e.val = t.val / 2) :
    iblk m c 1 t (ix3 (0 : Fin 1) d j) = V m c main_arg3 (ix3 e d j) := by
  obtain ⟨-, -, -, -, -, -, c0, c1, c2, -⟩ := idx_facts t
  have hd : d.val < 1024 := d.isLt
  have hj : j.val < 2048 := j.isLt
  show V m c main_arg3 (((cfg0.win 1).blk t).view.emb (ix3 (0 : Fin 1) d j)) = _
  refine congrArg (V m c main_arg3) (funext fun a => Fin.ext ?_)
  match a with
  | ⟨0, _⟩ => show win0_1.index t (0 : Fin 3) * 1 + 1 * 0 = e.val; omega
  | ⟨1, _⟩ => show win0_1.index t (1 : Fin 3) * 1024 + 1 * d.val = d.val; omega
  | ⟨2, _⟩ => show win0_1.index t (2 : Fin 3) * 2048 + 1 * j.val = j.val; omega

/-- Point t's down block is expert t / 2's matrix. -/
theorem dp_read (c : Dev nD) (t : Fin cfg0.N) (f : Fin 1024) (cc : Fin 1024) (e : Fin 64) (he : e.val = t.val / 2) :
    iblk m c 2 t (ix3 (0 : Fin 1) f cc) = V m c main_arg4 (ix3 e f cc) := by
  obtain ⟨-, -, -, -, -, -, -, -, -, d0, d1, d2⟩ := idx_facts t
  have hf : f.val < 1024 := f.isLt
  have hcc : cc.val < 1024 := cc.isLt
  show V m c main_arg4 (((cfg0.win 2).blk t).view.emb (ix3 (0 : Fin 1) f cc)) = _
  refine congrArg (V m c main_arg4) (funext fun a => Fin.ext ?_)
  match a with
  | ⟨0, _⟩ => show win0_2.index t (0 : Fin 3) * 1 + 1 * 0 = e.val; omega
  | ⟨1, _⟩ => show win0_2.index t (1 : Fin 3) * 1024 + 1 * f.val = f.val; omega
  | ⟨2, _⟩ => show win0_2.index t (2 : Fin 3) * 1024 + 1 * cc.val = cc.val; omega

set_option maxHeartbeats 1600000 in
/-- What point t writes back is block t of `ffn` of the arrays as the region finds them. -/
theorem flushed_eq (c : Dev nD) (t : Fin cfg0.N) :
    (dats m 0 c).flushed 3 t
      = ((cfg0.win 3).blk t).view.read (Elt Ideal) (ffn (V m c main_v31) (V m c main_arg3) (V m c main_arg4)) := by
  show (cfg0.win 3).cut (grid0.coords t) ((dats m 0 c).after 3 t) = _
  rw [after0_3]
  unfold out0_3
  rw [View.canon_unit_zero zero3]
  simp only [View.ld_unit_zero (S := S1x256x1024) zero3, View.ld_unit_zero (S := S1x1024x2048) zero3,
    View.ld_unit_zero (S := S1x1024x1024) zero3]
  obtain ⟨a0, a1, a2, -⟩ := idx_facts t
  have ht : t.val < 128 := lt_of_lt_of_eq t.isLt N_0
  funext j
  obtain ⟨u, r, cc, rfl⟩ : ∃ (u : Fin 1) (r : Fin 256) (cc : Fin 1024), j = ix3 u r cc := ⟨j 0, j 1, j 2, eq_ix3 j⟩
  have hu : u.val < 1 := u.isLt
  have hr : r.val < 256 := r.isLt
  have hcc : cc.val < 1024 := cc.isLt
  refine (pay_apply _ _ _ u r cc).trans ?_
  have hemb : ((cfg0.win 3).blk t).view.emb (ix3 u r cc)
      = ix3 (⟨t.val / 2, by omega⟩ : Fin 64) (⟨t.val % 2 * 256 + r.val, by omega⟩ : Fin 512) cc :=
    funext fun a => Fin.ext (by
      match a with
      | ⟨0, _⟩ => show win0_3.index t (0 : Fin 3) * 1 + 1 * u.val = t.val / 2; omega
      | ⟨1, _⟩ => show win0_3.index t (1 : Fin 3) * 256 + 1 * r.val = t.val % 2 * 256 + r.val; omega
      | ⟨2, _⟩ => show win0_3.index t (2 : Fin 3) * 1024 + 1 * cc.val = cc.val; omega)
  refine Eq.trans ?_ (congrArg (ffn (V m c main_v31) (V m c main_arg3) (V m c main_arg4)) hemb).symm
  exact (bffn_eq (V m c main_v31) (V m c main_arg3) (V m c main_arg4) _ _ _ ⟨t.val / 2, by omega⟩
    ⟨t.val % 2 * 256 + r.val, by omega⟩ r cc (fun d => rows_read m c t r d _ _ rfl rfl) (fun d j => gu_read m c t d j _ rfl)
    (fun f => dp_read m c t f cc _ rfl)).trans (ffn_apply _ _ _ _ _ _).symm

/-- An index of the output array is in point t's block iff each coordinate is in the block's range on its axis. -/
theorem mem_blk (t : Fin cfg0.N) (i : S64x512x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v32).slice (win0_3.rect t)).set ↔ _
  rw [View.set_slice_whole, Rect.mem_set_unit]
  exact Iff.rfl

/-- Every index of the output array is in the block of the point of its expert and its half. -/
theorem cover (i : S64x512x1024.Idx) :
    ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 1024 := (i 2).isLt
  have hN : cfg0.N = 128 := N_0
  have hlt : 2 * (i 0).val + (i 1).val / 256 < cfg0.N := by rw [hN]; omega
  obtain ⟨a0, a1, a2, -⟩ := idx_facts ⟨2 * (i 0).val + (i 1).val / 256, hlt⟩
  refine ⟨⟨2 * (i 0).val + (i 1).val / 256, hlt⟩, flush0_3 _, ?_⟩
  rw [mem_blk]
  intro a
  match a with
  | ⟨0, _⟩ =>
    show win0_3.index ⟨2 * (i 0).val + (i 1).val / 256, hlt⟩ (0 : Fin 3) * 1 ≤ (i 0).val
      ∧ (i 0).val < win0_3.index ⟨2 * (i 0).val + (i 1).val / 256, hlt⟩ (0 : Fin 3) * 1 + 1
    rw [a0]; show (2 * (i 0).val + (i 1).val / 256) / 2 * 1 ≤ (i 0).val ∧ (i 0).val < (2 * (i 0).val + (i 1).val / 256) / 2 * 1 + 1
    omega
  | ⟨1, _⟩ =>
    show win0_3.index ⟨2 * (i 0).val + (i 1).val / 256, hlt⟩ (1 : Fin 3) * 256 ≤ (i 1).val
      ∧ (i 1).val < win0_3.index ⟨2 * (i 0).val + (i 1).val / 256, hlt⟩ (1 : Fin 3) * 256 + 256
    rw [a1]; show (2 * (i 0).val + (i 1).val / 256) % 2 * 256 ≤ (i 1).val ∧ (i 1).val < (2 * (i 0).val + (i 1).val / 256) % 2 * 256 + 256
    omega
  | ⟨2, _⟩ =>
    show win0_3.index ⟨2 * (i 0).val + (i 1).val / 256, hlt⟩ (2 : Fin 3) * 1024 ≤ (i 2).val
      ∧ (i 2).val < win0_3.index ⟨2 * (i 0).val + (i 1).val / 256, hlt⟩ (2 : Fin 3) * 1024 + 1024
    rw [a2]; omega

/-- The output array after the region: `ffn` of the expert buffers and the two weight arrays as the region finds them. -/
theorem final (c : Dev nD) :
    (dats m 0 c).arrAt 3 cfg0.N = ffn (V m c main_v31) (V m c main_arg3) (V m c main_arg4) :=
  (dats m 0 c).arrAt_eq_of_cover 3 _ (fun t _ => flushed_eq m c t) cover

end Cert.KernelIdeal.Final

end
-- ==== Proof.KernelRun.lean ====
/-
  The kernel program's run, read. After the region every buffer is what the last host stretch makes of the contents the
  region leaves: the expert outputs at `ffn` of the expert buffers and the two weight arrays (the blocks assembled), every
  buffer that is no array of the region as the first host stretch left it. The result is the last stretch's fold over
  those contents; the argument arrays end as launched.
-/
import proofs.«106433_j68186900791359_1_alg».proof.Proof.KernelFinal

set_option maxRecDepth 16384

noncomputable section

namespace Cert.KernelIdeal.KRun

open Cert.KernelIdeal Cert.KernelIdeal.Gen Idealize.ShloMosaic Idealize.ShloMosaic.TcCoe Idealize.SL.Sem Cert.FfnSpec
open Idealize.ShloMosaic.Pipeline (Dat Cfg Window)

variable (m : (ℓ : Loc nD τ sig) → Buf (Elt Ideal) ℓ) (ρ : Dev nD → PrngReg)

/-- The buffer contents the last host stretch starts from: the region's arrays as the pipeline leaves them, every other
    buffer as the region found it. -/
abbrev W (c : Dev nD) : Valuation τ sig (Elt Ideal) :=
  Pipeline.withArrays (cfgs 0).spec c (V0 m c) fun w => (dats m 0 c).arrAt w (cfgs 0).N

/-- The expert outputs there. -/
theorem W_y (c : Dev nD) :
    W m c (Proc.devRef .tc main_v32) = ffn (V m c main_v31) (V m c main_arg3) (V m c main_arg4) :=
  (Pipeline.withArrays_arr spec0 launch0.win.arr_inj c _ _ 3).trans (Cert.KernelIdeal.Final.final m c)

/-- A buffer that is no array of the region. -/
theorem W_other (c : Dev nD) (b : Ref sig .tc) (hb : ∀ w, Pipeline.arrRef spec0 w ≠ b) :
    W m c (Proc.devRef .tc b) = V0 m c (Proc.devRef .tc b) :=
  Pipeline.withArrays_of_ne _ c (V0 m c) _ b hb

/-- The result buffer after the run is the last stretch's fold over those contents. -/
theorem tail_unfold (c : Dev nD) :
    Pipeline.afterTail₀ cfgs (dats m) 0 (V0 m) [hostOps1] c main_v53
      = StableHlo.after hostOps1 (W m c) (Proc.devRef .tc main_v53) := by
  unfold Pipeline.afterTail₀
  rfl

/-- Every weakly fair execution terminates with the result at that fold and the arguments unchanged. -/
theorem run : θ_run defs (onTc (τ := τ) (main (F := Ideal))) ⟨m, fun _ => 0, ρ⟩ (fun r => ∀ c : Dev nD,
      r.2.mem ((c.tc : Thread nD τ).loc main_v53) = StableHlo.after hostOps1 (W m c) (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v53 (Pipeline.mem_restRefs_of main_v53 (by decide) (by decide))).trans (tail_unfold m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩) (run_main m ρ)

end Cert.KernelIdeal.KRun

end
-- ==== Proof.RefRun.lean ====
/-
  The reference's @main as one straight line of host operations, and its run.

  The line is cut where the mathematics cuts it. The first stretch routes the tokens: each of the 16384 expanded tokens
  gets its expert (the flattened index array), its position within that expert's group (a running count of the one-hot
  rows, times the one-hot row, summed, minus one), a keep flag (position below the capacity 512) and the clamped
  position; the expanded rows, scaled by the keep flag, are scatter-added into the [64, 512, 1024] expert buffers. The
  second stretch is the per-expert gated feed-forward: a batched product with the gate/up weights, the two halves of its
  columns, silu of the first half (x times 1 / (1 + exp (-x)), spelt out) times the second, and a batched product with
  the down weights. The third stretch gathers each token's row back, scales it by keep flag times routing weight and adds
  the two choices of every token. The called functions' operations stand at their call sites, over the calls' own buffers.
-/
import proofs.«106433_j68186900791359_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Routing and dispatch: 48 operations ending in the scatter-add into the expert buffers. -/
abbrev preOps : List (HloOp τ sig (Elt F)) :=
  [ reshape main_arg1 main_v0 rfl shapeCasts_S8192x2_S16384,
    unary main_arg0 main_v1 (broadcastInDim S8192x2x1024 ![0, 2] bcast_S8192x1024_S8192x2x1024_0_2),
    reshape main_v1 main_v2 rfl shapeCasts_S8192x2x1024_S16384x1024,
    TRef.unary (.of main_v0 : TRef sig ⟨S16384, .i32⟩) main_call0.v0 (broadcastInDim S16384x1 ![0] bcast_S16384_S16384x1_0),
    TRef.nullary main_call0.v1 (iotaInDim S1x64 32 1),
    TRef.unary main_call0.v0 main_call0.v2 (broadcastInDim S16384x64 ![0, 1] bcast_S16384x1_S16384x64_0_1),
    TRef.unary main_call0.v1 main_call0.v3 (broadcastInDim S16384x64 ![0, 1] bcast_S1x64_S16384x64_0_1),
    TRef.binary main_call0.v2 main_call0.v3 main_call0.v4 (cmpi .eq),
    TRef.unary main_call0.v4 main_call0.v5 (extui 32 · natLt_1_32),
    TRef.nullary main_call1.call0.c (constantI S_ 32 0#32),
    TRef.unary main_call1.call0.c main_call1.call0.v0 (broadcastInDim S_ ![] bcast_S_S_),
    TRef.binary (.of main_v3 : TRef sig ⟨S16384x64, .i32⟩) main_call1.call0.v0 main_call1.call0.v1 (fun x v => Host.reduceWindow IntOp.addi ![16384, 1] ![1, 1] ![16383, 0] ![0, 0] x v reduceWindows_S16384x64_S16384x64_w16384s1p16383_0_w1s1p0_0 h_S_),
    binary main_v4 main_v3 main_v5 muli,
    nullary main_c (constantI S_ 32 0#32),
    binary main_v5 main_c main_v6 (fun x v => Host.reduce IntOp.addi x v reducesTo_S16384x64_S16384_d1 h_S_),
    nullary main_c_0 (constantI S_ 32 1#32),
    unary main_c_0 main_v7 (broadcastInDim S16384 ![] bcast_S_S16384),
    binary main_v6 main_v7 main_v8 subi,
    nullary main_c_1 (constantI S_ 32 512#32),
    unary main_c_1 main_v9 (broadcastInDim S16384 ![] bcast_S_S16384),
    binary main_v8 main_v9 main_v10 (cmpi .slt),
    unary main_v10 main_v11 (uitofp .f32),
    nullary main_c_2 (constantI S_ 32 511#32),
    unary main_c_2 main_v12 (broadcastInDim S16384 ![] bcast_S_S16384),
    binary main_v8 main_v12 main_v13 minsi,
    nullary main_cst (constant S_ .f32 0x00000000#32),
    unary main_cst main_v14 (broadcastInDim S64x512x1024 ![] bcast_S_S64x512x1024),
    unary main_v11 main_v15 (broadcastInDim S16384x1 ![0] bcast_S16384_S16384x1_0),
    unary main_v15 main_v16 (broadcastInDim S16384x1024 ![0, 1] bcast_S16384x1_S16384x1024_0_1),
    binary main_v2 main_v16 main_v17 mulf,
    nullary main_c_3 (constantI S_ 32 0#32),
    unary main_c_3 main_v18 (broadcastInDim S16384 ![] bcast_S_S16384),
    binary main_v0 main_v18 main_v19 (cmpi .slt),
    nullary main_c_4 (constantI S_ 32 64#32),
    unary main_c_4 main_v20 (broadcastInDim S16384 ![] bcast_S_S16384),
    binary main_v0 main_v20 main_v21 addi,
    ternary main_v19 main_v21 main_v0 main_v22 select,
    nullary main_c_5 (constantI S_ 32 0#32),
    unary main_c_5 main_v23 (broadcastInDim S16384 ![] bcast_S_S16384),
    binary main_v13 main_v23 main_v24 (cmpi .slt),
    nullary main_c_6 (constantI S_ 32 512#32),
    unary main_c_6 main_v25 (broadcastInDim S16384 ![] bcast_S_S16384),
    binary main_v13 main_v25 main_v26 addi,
    ternary main_v24 main_v26 main_v13 main_v27 select,
    unary main_v22 main_v28 (broadcastInDim S16384x1 ![0] bcast_S16384_S16384x1_0),
    unary main_v27 main_v29 (broadcastInDim S16384x1 ![0] bcast_S16384_S16384x1_0),
    binary main_v28 main_v29 main_v30 (fun a b => concatenate S16384x2 1 [⟨S16384x1, a⟩, ⟨S16384x1, b⟩] concatenates_S16384x1_S16384x1_S16384x2_d1),
    ternary main_v14 main_v30 main_v17 main_v31 (fun x i u => Host.scatterAdd scatter_S64x512x1024_S16384x2_S16384x1024_1_01_01_1 x i u) ]

/-- The per-expert gated feed-forward: 14 operations from the expert buffers to the expert outputs. -/
abbrev midOps : List (HloOp τ sig (Elt F)) :=
  [ binary main_v31 main_arg3 main_v32 (fun l r => Host.dotGeneral dot_S64x512x1024_S64x1024x2048_S64x512x2048_2_1_1_2_0_0 none l r),
    unary main_v32 main_v33 (extractStridedSlice S64x512x1024 ![0, 0, 0] · slices_S64x512x2048_S64x512x1024_0_0_0),
    unary main_v32 main_v34 (extractStridedSlice S64x512x1024 ![0, 0, 1024] · slices_S64x512x2048_S64x512x1024_0_0_1024),
    TRef.unary (.of main_v33 : TRef sig ⟨S64x512x1024, .f32⟩) main_call2.v0 Host.negf,
    TRef.unary main_call2.v0 main_call2.v1 Host.exp,
    TRef.nullary main_call2.cst (constant S_ .f32 0x3F800000#32),
    TRef.unary main_call2.cst main_call2.v2 (broadcastInDim S64x512x1024 ![] bcast_S_S64x512x1024),
    TRef.binary main_call2.v2 main_call2.v1 main_call2.v3 addf,
    TRef.nullary main_call2.cst_0 (constant S_ .f32 0x3F800000#32),
    TRef.unary main_call2.cst_0 main_call2.v4 (broadcastInDim S64x512x1024 ![] bcast_S_S64x512x1024),
    TRef.binary main_call2.v4 main_call2.v3 main_call2.v5 Host.divf,
    TRef.binary (.of main_v33 : TRef sig ⟨S64x512x1024, .f32⟩) main_call2.v5 main_call2.v6 mulf,
    binary main_v35 main_v34 main_v36 mulf,
    binary main_v36 main_arg4 main_v37 (fun l r => Host.dotGeneral dot_S64x512x1024_S64x1024x1024_S64x512x1024_2_1_1_2_0_0 none l r) ]

/-- The combine: 26 operations from the expert outputs to the result. -/
abbrev tailOps : List (HloOp τ sig (Elt F)) :=
  [ reshape main_arg2 main_v38 rfl shapeCasts_S8192x2_S16384,
    nullary main_c_7 (constantI S_ 32 0#32),
    unary main_c_7 main_v39 (broadcastInDim S16384 ![] bcast_S_S16384),
    binary main_v0 main_v39 main_v40 (cmpi .slt),
    nullary main_c_8 (constantI S_ 32 64#32),
    unary main_c_8 main_v41 (broadcastInDim S16384 ![] bcast_S_S16384),
    binary main_v0 main_v41 main_v42 addi,
    ternary main_v40 main_v42 main_v0 main_v43 select,
    nullary main_c_9 (constantI S_ 32 0#32),
    unary main_c_9 main_v44 (broadcastInDim S16384 ![] bcast_S_S16384),
    binary main_v13 main_v44 main_v45 (cmpi .slt),
    nullary main_c_10 (constantI S_ 32 512#32),
    unary main_c_10 main_v46 (broadcastInDim S16384 ![] bcast_S_S16384),
    binary main_v13 main_v46 main_v47 addi,
    ternary main_v45 main_v47 main_v13 main_v48 select,
    unary main_v43 main_v49 (broadcastInDim S16384x1 ![0] bcast_S16384_S16384x1_0),
    unary main_v48 main_v50 (broadcastInDim S16384x1 ![0] bcast_S16384_S16384x1_0),
    binary main_v49 main_v50 main_v51 (fun a b => concatenate S16384x2 1 [⟨S16384x1, a⟩, ⟨S16384x1, b⟩] concatenates_S16384x1_S16384x1_S16384x2_d1),
    binary main_v37 main_v51 main_v52 (fun x i => Host.gather gather_S64x512x1024_S16384x2_S16384x1024_1_01_n_n_01_1_111024 x i),
    binary main_v11 main_v38 main_v53 mulf,
    unary main_v53 main_v54 (broadcastInDim S16384x1 ![0] bcast_S16384_S16384x1_0),
    unary main_v54 main_v55 (broadcastInDim S16384x1024 ![0, 1] bcast_S16384x1_S16384x1024_0_1),
    binary main_v52 main_v55 main_v56 mulf,
    reshape main_v56 main_v57 rfl shapeCasts_S16384x1024_S8192x2x1024,
    nullary main_cst_11 (constant S_ .f32 0x00000000#32),
    binary main_v57 main_cst_11 main_v58 (fun x v => Host.reduceAdd x v reducesTo_S8192x2x1024_S8192x1024_d1 h_S_) ]

/-- The whole line. -/
abbrev ops : List (HloOp τ sig (Elt F)) := preOps ++ midOps ++ tailOps

/-- @main is that line: the called functions opened at their calls and the sequencing reassociated, both by unfolding
    definitions. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem preOps_sub : (preOps : List (HloOp τ sig (Elt F))).Forall fun op => op.bufs ⊆ tcRefs τ sig :=
  ⟨reshape_bufs_sub .., unary_bufs_sub .., reshape_bufs_sub .., unary_bufs_sub .., nullary_bufs_sub .., unary_bufs_sub ..,
    unary_bufs_sub .., binary_bufs_sub .., unary_bufs_sub .., nullary_bufs_sub .., unary_bufs_sub .., binary_bufs_sub ..,
    binary_bufs_sub .., nullary_bufs_sub .., binary_bufs_sub .., nullary_bufs_sub .., unary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..⟩

theorem midOps_sub : (midOps : List (HloOp τ sig (Elt F))).Forall fun op => op.bufs ⊆ tcRefs τ sig :=
  ⟨binary_bufs_sub .., unary_bufs_sub .., unary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., binary_bufs_sub ..⟩

theorem tailOps_sub : (tailOps : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., binary_bufs_sub .., unary_bufs_sub .., unary_bufs_sub .., binary_bufs_sub .., reshape_bufs_sub ..,
    nullary_bufs_sub .., binary_bufs_sub ..⟩

theorem ops_sub : (ops : List (HloOp τ sig (Elt F))).Forall fun op => op.bufs ⊆ tcRefs τ sig := by
  rw [List.forall_iff_forall_mem]
  intro op h
  rcases List.mem_append.mp h with h | h
  · rcases List.mem_append.mp h with h | h
    · exact (List.forall_iff_forall_mem.mp preOps_sub) op h
    · exact (List.forall_iff_forall_mem.mp midOps_sub) op h
  · exact (List.forall_iff_forall_mem.mp tailOps_sub) op h

theorem preOps_fresh : (preOps : List (HloOp τ sig (Elt F))).Forall fun op => op.fresh = ∅ := by
  simp only [List.Forall]; repeat' constructor
theorem midOps_fresh : (midOps : List (HloOp τ sig (Elt F))).Forall fun op => op.fresh = ∅ := by
  simp only [List.Forall]; repeat' constructor
theorem tailOps_fresh : (tailOps : List (HloOp τ sig (Elt F))).Forall fun op => op.fresh = ∅ := by
  simp only [List.Forall]; repeat' constructor

theorem ops_fresh : ∀ op ∈ (ops : List (HloOp τ sig (Elt F))), op.fresh = ∅ := by
  intro op h
  rcases List.mem_append.mp h with h | h
  · rcases List.mem_append.mp h with h | h
    · exact (List.forall_iff_forall_mem.mp preOps_fresh) op h
    · exact (List.forall_iff_forall_mem.mp midOps_fresh) op h
  · exact (List.forall_iff_forall_mem.mp tailOps_fresh) op h

/-- From any memory with zero counters every weakly fair execution of @main terminates, and every buffer ends at the
    fold of the line's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.LibBatch.lean ====
/-
  Batched matrix products and last-axis slices of rank-3 arrays read at an index, over variable extents. A batched
  product [B, M, K] · [B, K, N] on the host, at the extended reals, is at (b, p, c) the sum over the shared axis of the
  left factor's row (b, p) times the right factor's column (b, ·, c): batches never mix. A block of the last axis cut
  out of a rank-3 array reads the array at the shifted last coordinate.
-/
import Idealize.ShloMosaic.PureOps.Ideal.Laws
import Idealize.ShloMosaic.Lib.ValueIdx
import Idealize.ShloMosaic.Lib.Pipeline.Value

noncomputable section

namespace Cert.LibBatch

open Idealize.ShloMosaic Idealize.ShloMosaic.ValueIdx
open scoped BigOperators

variable {α : Type}

/-- Entries `o … o + C' − 1` of the last axis of an `[A, B, C]` array, read at `(a, b, j)`: the array at
    `(a, b, o + j)`. -/
theorem sliceLast3_apply {A B C C' : ℕ} (o : ℕ) (v : (⟨3, ![A, B, C]⟩ : Shape).Idx → α)
    (h : (⟨3, ![A, B, C]⟩ : Shape).Slices ![0, 0, o] ⟨3, ![A, B, C']⟩) (a : Fin A) (b : Fin B) (j : Fin C')
    (hj : o + j.val < C) :
    extractStridedSlice ⟨3, ![A, B, C']⟩ ![0, 0, o] v h (ix3 a b j) = v (ix3 a b ⟨o + j.val, hj⟩) :=
  extractStridedSlice_apply ![0, 0, o] v h (ix3 a b j) (ix3 a b ⟨o + j.val, hj⟩) (fun x => match x with
    | ⟨0, _⟩ => by show a.val = 0 + a.val; omega
    | ⟨1, _⟩ => by show b.val = 0 + b.val; omega
    | ⟨2, _⟩ => rfl)

/-- A batched `[B, M, K] · [B, K, N]` product on the host, read at `(b, p, c)` at the extended reals: the sum over the
    shared axis within batch `b`. The six hypotheses say which coordinates the product's dimension numbers pair up. -/
theorem dotGeneral_batched_apply {B M K N : ℕ} {φ₁ φ₂ : FTy}
    (d : DotDims ⟨3, ![B, M, K]⟩ ⟨3, ![B, K, N]⟩ ⟨3, ![B, M, N]⟩)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (q ⟨0, by omega⟩).val)
    (hr2 : ∀ i q, (d.rhsIdx i q 2).val = (i 2).val)
    (prec : Option ContractPrecision) (lhs : FVec Ideal ⟨3, ![B, M, K]⟩ φ₁) (rhs : FVec Ideal ⟨3, ![B, K, N]⟩ φ₂)
    (b : Fin B) (p : Fin M) (c : Fin N) :
    Host.dotGeneral d prec lhs rhs (ix3 b p c) = ∑ k : Fin K, lhs (ix3 b p k) * rhs (ix3 b k c) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix3 b p c) ((contrEquiv1 d K hr hs).symm k) = ix3 b p k := funext fun a => Fin.ext (by
    match a with
    | ⟨0, _⟩ => exact hl0 _ _
    | ⟨1, _⟩ => exact hl1 _ _
    | ⟨2, _⟩ => exact (hl2 _ _).trans hk)
  have er : d.rhsIdx (ix3 b p c) ((contrEquiv1 d K hr hs).symm k) = ix3 b k c := funext fun a => Fin.ext (by
    match a with
    | ⟨0, _⟩ => exact hr0 _ _
    | ⟨1, _⟩ => exact (hr1 _ _).trans hk
    | ⟨2, _⟩ => exact hr2 _ _)
  rw [el, er]

end Cert.LibBatch

end
-- ==== Proof.RefMid.lean ====
/-
  The reference's feed-forward stretch computes the function `ffn` of the expert buffers and the two weight arrays. Its
  first batched product at (e, r, j) is the product of row (e, r) of the buffers with column j of expert e's gate/up
  weights, so its two halves along the last axis are the gate and up pre-activations; silu, spelt
  x · (1 / (1 + exp (−x))) on the host, is x · σ(x) with σ the logistic function, by that function's definition on the
  extended reals (the word 0x3F800000 is the number one); and the second batched product sums activation times down
  weights over the hidden units within each expert.
-/
import proofs.«106433_j68186900791359_1_alg».proof.Proof.RefRun
import proofs.«106433_j68186900791359_1_alg».proof.Proof.LibBatch
import proofs.«106433_j68186900791359_1_alg».proof.Proof.LibTiles
import proofs.«106433_j68186900791359_1_alg».proof.Proof.FfnSpec

noncomputable section

namespace Cert.ReferenceIdeal.RefMid

open Cert.ReferenceIdeal Cert.ReferenceIdeal.Gen Idealize.ShloMosaic Idealize.ShloMosaic.ValueIdx Idealize.ShloMosaic.TcCoe
  Idealize.SL.Sem Idealize.ShloMosaic.StableHlo Cert.FfnSpec Cert.ReferenceIdeal.RefRun
open scoped BigOperators

/-- The two batched products' dimension numbers: batch axis 0, rows axis 1, the shared axis last on the left and
    middle on the right. -/
abbrev D1 : DotDims S64x512x1024 S64x1024x2048 S64x512x2048 := dot_S64x512x1024_S64x1024x2048_S64x512x2048_2_1_1_2_0_0
abbrev D2 : DotDims S64x512x1024 S64x1024x1024 S64x512x1024 := dot_S64x512x1024_S64x1024x1024_S64x512x1024_2_1_1_2_0_0

theorem D1_rank : D1.contr.rank = 1 := rfl
theorem D1_size : D1.contr.size ⟨0, by rw [D1_rank]; omega⟩ = 1024 := rfl
theorem D2_rank : D2.contr.rank = 1 := rfl
theorem D2_size : D2.contr.size ⟨0, by rw [D2_rank]; omega⟩ = 1024 := rfl

/-- The first batched product at (e, r, j). -/
theorem h_apply (xd : FVec Ideal S64x512x1024 .f32) (gu : FVec Ideal S64x1024x2048 .f32) (e : Fin 64) (r : Fin 512)
    (j : Fin 2048) :
    Host.dotGeneral D1 none xd gu (ix3 e r j) = ∑ d : Fin 1024, xd (ix3 e r d) * gu (ix3 e d j) :=
  Cert.LibBatch.dotGeneral_batched_apply D1 D1_rank D1_size (fun _ _ => rfl) (fun _ _ => rfl)
    (fun i q => D1.lhsIdx_val_of_single rfl i q) (fun _ _ => rfl) (fun i q => D1.rhsIdx_val_of_single rfl i q)
    (fun _ _ => rfl) none xd gu e r j

/-- The second batched product at (e, r, c). -/
theorem y_apply (a : FVec Ideal S64x512x1024 .f32) (dp : FVec Ideal S64x1024x1024 .f32) (e : Fin 64) (r : Fin 512)
    (c : Fin 1024) :
    Host.dotGeneral D2 none a dp (ix3 e r c) = ∑ f : Fin 1024, a (ix3 e r f) * dp (ix3 e f c) :=
  Cert.LibBatch.dotGeneral_batched_apply D2 D2_rank D2_size (fun _ _ => rfl) (fun _ _ => rfl)
    (fun i q => D2.lhsIdx_val_of_single rfl i q) (fun _ _ => rfl) (fun i q => D2.rhsIdx_val_of_single rfl i q)
    (fun _ _ => rfl) none a dp e r c

/-- The host's spelling of the logistic function, with the two ones as the float word of one. -/
theorem host_logistic (x : EReal) :
    Ideal.div (Ideal.ofBits .f32 0x3F800000#32) (Ideal.ofBits .f32 0x3F800000#32 + Ideal.exp (-x)) = Ideal.logistic x := by
  rw [Cert.LibTiles.one_f32]; rfl

/-- The stretch's term is `ffn`. -/
theorem mid_value (xd : FVec Ideal S64x512x1024 .f32) (gu : FVec Ideal S64x1024x2048 .f32)
    (dp : FVec Ideal S64x1024x1024 .f32)
    (hs0 : S64x512x2048.Slices ![0, 0, 0] S64x512x1024) (hs1 : S64x512x2048.Slices ![0, 0, 1024] S64x512x1024)
    (hbc : S_.BroadcastsInDim S64x512x1024 (![] : Fin 0 → Fin S64x512x1024.rank)) :
    Host.dotGeneral D2 none
        (mulf (mulf (extractStridedSlice S64x512x1024 ![0, 0, 0] (Host.dotGeneral D1 none xd gu) hs0)
            (Host.divf (broadcastInDim S64x512x1024 ![] hbc (constant (F := Ideal) S_ .f32 0x3F800000#32))
              (addf (broadcastInDim S64x512x1024 ![] hbc (constant (F := Ideal) S_ .f32 0x3F800000#32))
                (Host.exp (Host.negf (extractStridedSlice S64x512x1024 ![0, 0, 0] (Host.dotGeneral D1 none xd gu) hs0))))))
          (extractStridedSlice S64x512x1024 ![0, 0, 1024] (Host.dotGeneral D1 none xd gu) hs1)) dp
      = ffn xd gu dp := by
  funext i
  obtain ⟨e, r, c, rfl⟩ : ∃ (e : Fin 64) (r : Fin 512) (c : Fin 1024), i = ix3 e r c := ⟨i 0, i 1, i 2, eq_ix3 i⟩
  rw [y_apply, ffn_apply]
  unfold ffnAt
  refine Finset.sum_congr rfl fun f _ => ?_
  refine congrArg (· * dp (ix3 e f c)) ?_
  have hg : extractStridedSlice S64x512x1024 ![0, 0, 0] (Host.dotGeneral D1 none xd gu) hs0 (ix3 e r f) = gate xd gu e r f :=
    (Cert.LibBatch.sliceLast3_apply 0 _ hs0 e r f (by have := f.isLt; omega)).trans (h_apply xd gu e r (gateCol f))
  have hu : extractStridedSlice S64x512x1024 ![0, 0, 1024] (Host.dotGeneral D1 none xd gu) hs1 (ix3 e r f) = up xd gu e r f :=
    (Cert.LibBatch.sliceLast3_apply 1024 _ hs1 e r f (by have := f.isLt; omega)).trans (h_apply xd gu e r (upCol f))
  show extractStridedSlice S64x512x1024 ![0, 0, 0] (Host.dotGeneral D1 none xd gu) hs0 (ix3 e r f)
      * Ideal.div (Ideal.ofBits .f32 0x3F800000#32) (Ideal.ofBits .f32 0x3F800000#32
          + Ideal.exp (-(extractStridedSlice S64x512x1024 ![0, 0, 0] (Host.dotGeneral D1 none xd gu) hs0 (ix3 e r f))))
      * extractStridedSlice S64x512x1024 ![0, 0, 1024] (Host.dotGeneral D1 none xd gu) hs1 (ix3 e r f) = act xd gu e r f
  rw [host_logistic, hg, hu]
  rfl

/-- The stretch over any buffer contents: the expert outputs are `ffn` of the expert buffers and the two weight
    arrays as the stretch finds them. -/
theorem mid_eq (W : Valuation τ sig (Elt Ideal)) :
    after (midOps (F := Ideal)) W (Proc.devRef .tc main_v37)
      = ffn (W (Proc.devRef .tc main_v31)) (W (Proc.devRef .tc main_arg3)) (W (Proc.devRef .tc main_arg4)) := by
  after_results
  exact mid_value _ _ _ slices_S64x512x2048_S64x512x1024_0_0_0 slices_S64x512x2048_S64x512x1024_0_0_1024 bcast_S_S64x512x1024

end Cert.ReferenceIdeal.RefMid

end
-- ==== Proof.HostJoinBase.lean ====
/-
  The two programs route, dispatch and combine with the same host operations; only the buffers are numbered
  differently. The names shared by the comparisons of those stretches: the kernel program's operations before the
  region as one line, and the two programs' buffer contents.
-/
import proofs.«106433_j68186900791359_1_alg».proof.Proof.Gen.KernelIdeal.Frame
import proofs.«106433_j68186900791359_1_alg».proof.Proof.RefRun
import Idealize.ShloMosaic.PureOps.Ideal

set_option maxRecDepth 16384

noncomputable section

namespace Cert.HostJoin

open Idealize.ShloMosaic Idealize.ShloMosaic.TcCoe Idealize.SL.Sem Idealize.ShloMosaic.StableHlo

/-- The kernel program's host operations before the region, as one line. -/
abbrev preK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3]

abbrev VK := Valuation Cert.KernelIdeal.τ Cert.KernelIdeal.sig (Elt Ideal)
abbrev VR := Valuation Cert.ReferenceIdeal.τ Cert.ReferenceIdeal.sig (Elt Ideal)

/-- Reads a line of operations at a buffer, one operation at a time: an operation's result at its own buffer is its
    function of its operands' contents, at any other buffer what was there. This also reads the operands of a
    concatenation, whose operand list carries a shape condition. -/
macro "results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide))))

end Cert.HostJoin

end
-- ==== Proof.HostJoinPreA.lean ====
/-
  Run from buffer contents that agree on the token array and the index array, the two programs' first stretches leave
  the same expert numbers, clamped positions and keep flags: each side's stretch is read as a term over its starting
  contents, and the two terms are one.
-/
import proofs.«106433_j68186900791359_1_alg».proof.Proof.HostJoinBase

set_option maxRecDepth 16384

noncomputable section

namespace Cert.HostJoin

open Idealize.ShloMosaic Idealize.ShloMosaic.TcCoe Idealize.SL.Sem Idealize.ShloMosaic.StableHlo

variable (K : VK) (R : VR)
  (h0 : K (Proc.devRef .tc Cert.KernelIdeal.main_arg0) = R (Proc.devRef .tc Cert.ReferenceIdeal.main_arg0))
  (h1 : K (Proc.devRef .tc Cert.KernelIdeal.main_arg1) = R (Proc.devRef .tc Cert.ReferenceIdeal.main_arg1))
include h0 h1

set_option maxHeartbeats 2000000 in
/-- The expert numbers. -/
theorem pre_e : after preK K (Proc.devRef .tc Cert.KernelIdeal.main_v0) = after (Cert.ReferenceIdeal.RefRun.preOps (F := Ideal)) R (Proc.devRef .tc Cert.ReferenceIdeal.main_v0) := by
  simp only [preK, Cert.KernelIdeal.Gen.hostOps0, Cert.KernelIdeal.Gen.hostOps0_1, Cert.KernelIdeal.Gen.hostOps0_2, Cert.KernelIdeal.Gen.hostOps0_3, List.flatten_cons, List.flatten_nil,
    List.append_nil, List.cons_append, List.nil_append]
  after_results_simp
  rw [h1]
  rfl

set_option maxHeartbeats 2000000 in
/-- The clamped positions. -/
theorem pre_pos : after preK K (Proc.devRef .tc Cert.KernelIdeal.main_v13) = after (Cert.ReferenceIdeal.RefRun.preOps (F := Ideal)) R (Proc.devRef .tc Cert.ReferenceIdeal.main_v13) := by
  simp only [preK, Cert.KernelIdeal.Gen.hostOps0, Cert.KernelIdeal.Gen.hostOps0_1, Cert.KernelIdeal.Gen.hostOps0_2, Cert.KernelIdeal.Gen.hostOps0_3, List.flatten_cons, List.flatten_nil,
    List.append_nil, List.cons_append, List.nil_append]
  after_results_simp
  rw [h1]
  rfl

set_option maxHeartbeats 2000000 in
/-- The keep flags. -/
theorem pre_keep : after preK K (Proc.devRef .tc Cert.KernelIdeal.main_v11) = after (Cert.ReferenceIdeal.RefRun.preOps (F := Ideal)) R (Proc.devRef .tc Cert.ReferenceIdeal.main_v11) := by
  simp only [preK, Cert.KernelIdeal.Gen.hostOps0, Cert.KernelIdeal.Gen.hostOps0_1, Cert.KernelIdeal.Gen.hostOps0_2, Cert.KernelIdeal.Gen.hostOps0_3, List.flatten_cons, List.flatten_nil,
    List.append_nil, List.cons_append, List.nil_append]
  after_results_simp
  rw [h1]
  rfl

end Cert.HostJoin

end
-- ==== Proof.HostJoinPreXd.lean ====
/-
  Run from buffer contents that agree on the token array and the index array, the two programs' first stretches leave
  the same expert buffers. The last two operations are read first: the scatter-add of the kept expanded rows into the
  zero buffers, at index rows that join the expert column and the clamped-position column. Its four operands — the zero
  buffers, the two columns, the kept rows — come from the 46 operations before, which hold no concatenation, and each is
  read as a term over the starting contents on both sides; the two terms are one.
-/
import proofs.«106433_j68186900791359_1_alg».proof.Proof.HostJoinBase

set_option maxRecDepth 16384

noncomputable section

namespace Cert.HostJoin

open Idealize.ShloMosaic Idealize.ShloMosaic.TcCoe Idealize.SL.Sem Idealize.ShloMosaic.StableHlo

/-- A scatter-add of updates at index rows made of two joined columns: equal operands give equal results, whichever
    program's shape names and dimension records spell it. -/
theorem scatter_cols_congr
    {a a' : FVec Ideal Cert.ReferenceIdeal.S64x512x1024 .f32} {b b' c c' : IVec Cert.ReferenceIdeal.S16384x1 32} {d d' : FVec Ideal Cert.ReferenceIdeal.S16384x1024 .f32}
    (h1 : a = a') (h2 : b = b') (h3 : c = c') (h4 : d = d') :
    Host.scatterAdd Cert.KernelIdeal.scatter_S64x512x1024_S16384x2_S16384x1024_1_01_01_1 a
        (concatenate Cert.KernelIdeal.S16384x2 1 [⟨Cert.KernelIdeal.S16384x1, b⟩, ⟨Cert.KernelIdeal.S16384x1, c⟩]
          Cert.KernelIdeal.Facts₀.concatenates_S16384x1_S16384x1_S16384x2_d1) d
      = Host.scatterAdd Cert.ReferenceIdeal.scatter_S64x512x1024_S16384x2_S16384x1024_1_01_01_1 a'
        (concatenate Cert.ReferenceIdeal.S16384x2 1 [⟨Cert.ReferenceIdeal.S16384x1, b'⟩, ⟨Cert.ReferenceIdeal.S16384x1, c'⟩]
          Cert.ReferenceIdeal.Facts₀.concatenates_S16384x1_S16384x1_S16384x2_d1) d' := by
  subst h1 h2 h3 h4; rfl

variable (K : VK) (R : VR)
  (h0 : K (Proc.devRef .tc Cert.KernelIdeal.main_arg0) = R (Proc.devRef .tc Cert.ReferenceIdeal.main_arg0))
  (h1 : K (Proc.devRef .tc Cert.KernelIdeal.main_arg1) = R (Proc.devRef .tc Cert.ReferenceIdeal.main_arg1))
include h0 h1

set_option maxHeartbeats 2000000 in
/-- The expert buffers. -/
theorem pre_xd : after preK K (Proc.devRef .tc Cert.KernelIdeal.main_v31) = after (Cert.ReferenceIdeal.RefRun.preOps (F := Ideal)) R (Proc.devRef .tc Cert.ReferenceIdeal.main_v31) := by
  simp only [preK, Cert.KernelIdeal.Gen.hostOps0, Cert.KernelIdeal.Gen.hostOps0_1, Cert.KernelIdeal.Gen.hostOps0_2, Cert.KernelIdeal.Gen.hostOps0_3, List.flatten_cons, List.flatten_nil,
    List.append_nil, List.cons_append, List.nil_append]
  simp only [after_cons, after_nil]
  rw [ternary_result, ternary_result]
  rw [binary_result, binary_result]
  iterate 4 (rw [binary_result_ne]; rotate_left; decide)
  refine scatter_cols_congr ?_ ?_ ?_ ?_
  · after_results_simp
  · after_results_simp
    rw [h1]
    try rfl
  · after_results_simp
    rw [h1]
    try rfl
  · after_results_simp
    rw [h0, h1]
    try rfl

end Cert.HostJoin

end
-- ==== Proof.HostJoinTail.lean ====
/-
  The combine: from contents agreeing on the expert outputs, the expert numbers, the clamped positions, the keep flags
  and the routing weights, both programs' last stretches leave the same result: each token's row gathered at
  (expert, clamped position), scaled by keep flag times weight, the two choices of a token added.
-/
import proofs.«106433_j68186900791359_1_alg».proof.Proof.HostJoinBase

set_option maxRecDepth 16384

noncomputable section

namespace Cert.HostJoin

open Idealize.ShloMosaic Idealize.ShloMosaic.TcCoe Idealize.SL.Sem Idealize.ShloMosaic.StableHlo

set_option maxHeartbeats 4000000 in
theorem tail_eq (K : VK) (R : VR)
    (hy : K (Proc.devRef .tc Cert.KernelIdeal.main_v32) = R (Proc.devRef .tc Cert.ReferenceIdeal.main_v37))
    (he : K (Proc.devRef .tc Cert.KernelIdeal.main_v0) = R (Proc.devRef .tc Cert.ReferenceIdeal.main_v0))
    (hp : K (Proc.devRef .tc Cert.KernelIdeal.main_v13) = R (Proc.devRef .tc Cert.ReferenceIdeal.main_v13))
    (hk : K (Proc.devRef .tc Cert.KernelIdeal.main_v11) = R (Proc.devRef .tc Cert.ReferenceIdeal.main_v11))
    (hw : K (Proc.devRef .tc Cert.KernelIdeal.main_arg2) = R (Proc.devRef .tc Cert.ReferenceIdeal.main_arg2)) :
    after (Cert.KernelIdeal.Gen.hostOps1 (F := Ideal)) K (Proc.devRef .tc Cert.KernelIdeal.main_v53)
      = after (Cert.ReferenceIdeal.RefRun.tailOps (F := Ideal)) R (Proc.devRef .tc Cert.ReferenceIdeal.main_v58) := by
  simp only [Cert.KernelIdeal.Gen.hostOps1]
  after_results_simp
  results_rw
  rw [hy, he, hp, hk, hw]
  rfl

end Cert.HostJoin

end
-- ==== Proof.HostJoinKeeps.lean ====
/-
  What the reference's three stretches leave alone: none writes an argument array, and the feed-forward stretch writes
  neither the expert numbers nor the clamped positions nor the keep flags.
-/
import proofs.«106433_j68186900791359_1_alg».proof.Proof.HostJoinBase

set_option maxRecDepth 16384

noncomputable section

namespace Cert.HostJoin

open Idealize.ShloMosaic Idealize.ShloMosaic.TcCoe Idealize.SL.Sem Idealize.ShloMosaic.StableHlo

variable (R : VR)
theorem pre_arg0 : after (Cert.ReferenceIdeal.RefRun.preOps (F := Ideal)) R (Proc.devRef .tc Cert.ReferenceIdeal.main_arg0) = R (Proc.devRef .tc Cert.ReferenceIdeal.main_arg0) := by after_results_simp
theorem pre_arg1 : after (Cert.ReferenceIdeal.RefRun.preOps (F := Ideal)) R (Proc.devRef .tc Cert.ReferenceIdeal.main_arg1) = R (Proc.devRef .tc Cert.ReferenceIdeal.main_arg1) := by after_results_simp
theorem pre_arg2 : after (Cert.ReferenceIdeal.RefRun.preOps (F := Ideal)) R (Proc.devRef .tc Cert.ReferenceIdeal.main_arg2) = R (Proc.devRef .tc Cert.ReferenceIdeal.main_arg2) := by after_results_simp
theorem pre_arg3 : after (Cert.ReferenceIdeal.RefRun.preOps (F := Ideal)) R (Proc.devRef .tc Cert.ReferenceIdeal.main_arg3) = R (Proc.devRef .tc Cert.ReferenceIdeal.main_arg3) := by after_results_simp
theorem pre_arg4 : after (Cert.ReferenceIdeal.RefRun.preOps (F := Ideal)) R (Proc.devRef .tc Cert.ReferenceIdeal.main_arg4) = R (Proc.devRef .tc Cert.ReferenceIdeal.main_arg4) := by after_results_simp
theorem mid_arg0 : after (Cert.ReferenceIdeal.RefRun.midOps (F := Ideal)) R (Proc.devRef .tc Cert.ReferenceIdeal.main_arg0) = R (Proc.devRef .tc Cert.ReferenceIdeal.main_arg0) := by after_results_simp
theorem mid_arg1 : after (Cert.ReferenceIdeal.RefRun.midOps (F := Ideal)) R (Proc.devRef .tc Cert.ReferenceIdeal.main_arg1) = R (Proc.devRef .tc Cert.ReferenceIdeal.main_arg1) := by after_results_simp
theorem mid_arg2 : after (Cert.ReferenceIdeal.RefRun.midOps (F := Ideal)) R (Proc.devRef .tc Cert.ReferenceIdeal.main_arg2) = R (Proc.devRef .tc Cert.ReferenceIdeal.main_arg2) := by after_results_simp
theorem mid_arg3 : after (Cert.ReferenceIdeal.RefRun.midOps (F := Ideal)) R (Proc.devRef .tc Cert.ReferenceIdeal.main_arg3) = R (Proc.devRef .tc Cert.ReferenceIdeal.main_arg3) := by after_results_simp
theorem mid_arg4 : after (Cert.ReferenceIdeal.RefRun.midOps (F := Ideal)) R (Proc.devRef .tc Cert.ReferenceIdeal.main_arg4) = R (Proc.devRef .tc Cert.ReferenceIdeal.main_arg4) := by after_results_simp
theorem tail_arg0 : after (Cert.ReferenceIdeal.RefRun.tailOps (F := Ideal)) R (Proc.devRef .tc Cert.ReferenceIdeal.main_arg0) = R (Proc.devRef .tc Cert.ReferenceIdeal.main_arg0) := by after_results_simp
theorem tail_arg1 : after (Cert.ReferenceIdeal.RefRun.tailOps (F := Ideal)) R (Proc.devRef .tc Cert.ReferenceIdeal.main_arg1) = R (Proc.devRef .tc Cert.ReferenceIdeal.main_arg1) := by after_results_simp
theorem tail_arg2 : after (Cert.ReferenceIdeal.RefRun.tailOps (F := Ideal)) R (Proc.devRef .tc Cert.ReferenceIdeal.main_arg2) = R (Proc.devRef .tc Cert.ReferenceIdeal.main_arg2) := by after_results_simp
theorem tail_arg3 : after (Cert.ReferenceIdeal.RefRun.tailOps (F := Ideal)) R (Proc.devRef .tc Cert.ReferenceIdeal.main_arg3) = R (Proc.devRef .tc Cert.ReferenceIdeal.main_arg3) := by after_results_simp
theorem tail_arg4 : after (Cert.ReferenceIdeal.RefRun.tailOps (F := Ideal)) R (Proc.devRef .tc Cert.ReferenceIdeal.main_arg4) = R (Proc.devRef .tc Cert.ReferenceIdeal.main_arg4) := by after_results_simp
theorem mid_e : after (Cert.ReferenceIdeal.RefRun.midOps (F := Ideal)) R (Proc.devRef .tc Cert.ReferenceIdeal.main_v0) = R (Proc.devRef .tc Cert.ReferenceIdeal.main_v0) := by after_results_simp
theorem mid_pos : after (Cert.ReferenceIdeal.RefRun.midOps (F := Ideal)) R (Proc.devRef .tc Cert.ReferenceIdeal.main_v13) = R (Proc.devRef .tc Cert.ReferenceIdeal.main_v13) := by after_results_simp
theorem mid_keep : after (Cert.ReferenceIdeal.RefRun.midOps (F := Ideal)) R (Proc.devRef .tc Cert.ReferenceIdeal.main_v11) = R (Proc.devRef .tc Cert.ReferenceIdeal.main_v11) := by after_results_simp

end Cert.HostJoin

end
-- ==== Proof.HostJoin.lean ====
/-
  The comparisons of the two programs' host stretches, gathered.
-/
import proofs.«106433_j68186900791359_1_alg».proof.Proof.HostJoinPreA
import proofs.«106433_j68186900791359_1_alg».proof.Proof.HostJoinPreXd
import proofs.«106433_j68186900791359_1_alg».proof.Proof.HostJoinTail
import proofs.«106433_j68186900791359_1_alg».proof.Proof.HostJoinKeeps
-- ==== Proof.lean ====
/-
  The claim: a mixture-of-experts layer whose per-expert gated feed-forward runs as a kernel over (expert, half of the
  expert's slots), against the same layer written with two batched matrix products.

  Both programs route the 16384 expanded tokens to expert slots, scatter-add the kept rows into [64, 512, 1024] expert
  buffers, apply the feed-forward, gather each token's row back, weight it and add each token's two choices. The routing,
  the dispatch and the combine are the same host operations on both sides and are never opened: what goes into them is
  shown equal and the stretches are compared whole. In between, the kernel computes for each block of 256 slots of one
  expert the products of the rows with the gate and up halves of the expert's weights, gate · σ(gate) · up, and the
  product with the down weights; the reference computes the same sums for all experts at once and spells σ out as
  1 / (1 + exp (−x)). At the extended reals the roundings to the 16-bit format are the identity, σ is that expression by
  definition, and no sum is regrouped, so both are one function `ffn` of the expert buffers and the weights — whatever
  the inputs hold: the precondition is not used. The ideal pass rewrote nothing, so `preserves` has nothing to state.
-/
import proofs.«106433_j68186900791359_1_alg».proof.Defs
import proofs.«106433_j68186900791359_1_alg».proof.Proof.Gen.Kernel.Frame
import proofs.«106433_j68186900791359_1_alg».proof.Proof.KernelRun
import proofs.«106433_j68186900791359_1_alg».proof.Proof.RefMid
import proofs.«106433_j68186900791359_1_alg».proof.Proof.HostJoin
import proofs.«106433_j68186900791359_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.FfnSpec Cert.HostJoin

/-! ## The reference's line leaves its arguments alone -/

section RefArgs
variable (R : VR)

theorem ref_arg0 : after (Cert.ReferenceIdeal.RefRun.ops (F := Ideal)) R (Proc.devRef .tc Cert.ReferenceIdeal.main_arg0) = R (Proc.devRef .tc Cert.ReferenceIdeal.main_arg0) := by
  rw [show (Cert.ReferenceIdeal.RefRun.ops (F := Ideal)) = Cert.ReferenceIdeal.RefRun.preOps ++ Cert.ReferenceIdeal.RefRun.midOps ++ Cert.ReferenceIdeal.RefRun.tailOps from rfl,
    StableHlo.after_append, StableHlo.after_append, tail_arg0, mid_arg0, pre_arg0]
theorem ref_arg1 : after (Cert.ReferenceIdeal.RefRun.ops (F := Ideal)) R (Proc.devRef .tc Cert.ReferenceIdeal.main_arg1) = R (Proc.devRef .tc Cert.ReferenceIdeal.main_arg1) := by
  rw [show (Cert.ReferenceIdeal.RefRun.ops (F := Ideal)) = Cert.ReferenceIdeal.RefRun.preOps ++ Cert.ReferenceIdeal.RefRun.midOps ++ Cert.ReferenceIdeal.RefRun.tailOps from rfl,
    StableHlo.after_append, StableHlo.after_append, tail_arg1, mid_arg1, pre_arg1]
theorem ref_arg2 : after (Cert.ReferenceIdeal.RefRun.ops (F := Ideal)) R (Proc.devRef .tc Cert.ReferenceIdeal.main_arg2) = R (Proc.devRef .tc Cert.ReferenceIdeal.main_arg2) := by
  rw [show (Cert.ReferenceIdeal.RefRun.ops (F := Ideal)) = Cert.ReferenceIdeal.RefRun.preOps ++ Cert.ReferenceIdeal.RefRun.midOps ++ Cert.ReferenceIdeal.RefRun.tailOps from rfl,
    StableHlo.after_append, StableHlo.after_append, tail_arg2, mid_arg2, pre_arg2]
theorem ref_arg3 : after (Cert.ReferenceIdeal.RefRun.ops (F := Ideal)) R (Proc.devRef .tc Cert.ReferenceIdeal.main_arg3) = R (Proc.devRef .tc Cert.ReferenceIdeal.main_arg3) := by
  rw [show (Cert.ReferenceIdeal.RefRun.ops (F := Ideal)) = Cert.ReferenceIdeal.RefRun.preOps ++ Cert.ReferenceIdeal.RefRun.midOps ++ Cert.ReferenceIdeal.RefRun.tailOps from rfl,
    StableHlo.after_append, StableHlo.after_append, tail_arg3, mid_arg3, pre_arg3]
theorem ref_arg4 : after (Cert.ReferenceIdeal.RefRun.ops (F := Ideal)) R (Proc.devRef .tc Cert.ReferenceIdeal.main_arg4) = R (Proc.devRef .tc Cert.ReferenceIdeal.main_arg4) := by
  rw [show (Cert.ReferenceIdeal.RefRun.ops (F := Ideal)) = Cert.ReferenceIdeal.RefRun.preOps ++ Cert.ReferenceIdeal.RefRun.midOps ++ Cert.ReferenceIdeal.RefRun.tailOps from rfl,
    StableHlo.after_append, StableHlo.after_append, tail_arg4, mid_arg4, pre_arg4]

end RefArgs

/-- The reference's run with the arguments read back. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v58)
        = after (Cert.ReferenceIdeal.RefRun.ops (F := Ideal)) (launchContents m c) (Proc.devRef .tc Cert.ReferenceIdeal.main_v58)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c =>
    ⟨h c Cert.ReferenceIdeal.main_v58, (h c Cert.ReferenceIdeal.main_arg0).trans (ref_arg0 _), (h c Cert.ReferenceIdeal.main_arg1).trans (ref_arg1 _),
      (h c Cert.ReferenceIdeal.main_arg2).trans (ref_arg2 _), (h c Cert.ReferenceIdeal.main_arg3).trans (ref_arg3 _), (h c Cert.ReferenceIdeal.main_arg4).trans (ref_arg4 _)⟩)
    (Cert.ReferenceIdeal.RefRun.run (F := Ideal) m ρ)

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (ref_run m ρ)

/-- The ideal pass rewrote no operation. -/
theorem preserves : Cert.preserves_Kernel_KernelIdeal := trivial

theorem ffn_congr {a a' : FVec Ideal SXd .f32} {b b' : FVec Ideal SGu .f32} {c c' : FVec Ideal SDp .f32}
    (h1 : a = a') (h2 : b = b') (h3 : c = c') : ffn a b c = ffn a' b' c' := by subst h1 h2 h3; rfl

/-- Run from memories agreeing on the arguments, both programs end with the combine applied to `ffn` of the same expert
    buffers and weights, the same expert numbers, clamped positions, keep flags and routing weights. -/
theorem algebraic : Cert.algebraic_KernelIdeal_ReferenceIdeal := by
  intro m ρ m' ρ' _ hagree
  refine ⟨fun c => after (Cert.KernelIdeal.Gen.hostOps1 (F := Ideal)) (Cert.KernelIdeal.KRun.W m c) (Proc.devRef .tc Cert.KernelIdeal.main_v53),
    Cert.KernelIdeal.KRun.run m ρ, ?_⟩
  refine (θ_run Cert.ReferenceIdeal.defs _ _).mono (fun _ h c => ⟨(h c).1.trans ?_, (h c).2⟩) (ref_run m' ρ')
  obtain ⟨g0, g1, g2, g3, g4⟩ := hagree c
  -- the contents both first stretches start from agree on the token array and the index array
  have h0 : (fun b => m (c, b) : VK) (Proc.devRef .tc Cert.KernelIdeal.main_arg0) = (launchContents m' c) (Proc.devRef .tc Cert.ReferenceIdeal.main_arg0) := g0.symm
  have h1 : (fun b => m (c, b) : VK) (Proc.devRef .tc Cert.KernelIdeal.main_arg1) = (launchContents m' c) (Proc.devRef .tc Cert.ReferenceIdeal.main_arg1) := g1.symm
  rw [show (Cert.ReferenceIdeal.RefRun.ops (F := Ideal)) = Cert.ReferenceIdeal.RefRun.preOps ++ Cert.ReferenceIdeal.RefRun.midOps ++ Cert.ReferenceIdeal.RefRun.tailOps from rfl,
    StableHlo.after_append, StableHlo.after_append]
  refine (tail_eq _ _ ?_ ?_ ?_ ?_ ?_).symm
  · refine (Cert.KernelIdeal.KRun.W_y m c).trans (Eq.trans ?_ (Cert.ReferenceIdeal.RefMid.mid_eq _).symm)
    refine ffn_congr (pre_xd _ _ h0 h1) ?_ ?_
    · exact (Cert.KernelIdeal.Gen.V_main_arg3 m c).trans (g3.symm.trans (pre_arg3 (launchContents m' c)).symm)
    · exact (Cert.KernelIdeal.Gen.V_main_arg4 m c).trans (g4.symm.trans (pre_arg4 (launchContents m' c)).symm)
  · exact (Cert.KernelIdeal.KRun.W_other m c Cert.KernelIdeal.main_v0 (by decide)).trans ((pre_e _ _ h0 h1).trans (mid_e _).symm)
  · exact (Cert.KernelIdeal.KRun.W_other m c Cert.KernelIdeal.main_v13 (by decide)).trans ((pre_pos _ _ h0 h1).trans (mid_pos _).symm)
  · exact (Cert.KernelIdeal.KRun.W_other m c Cert.KernelIdeal.main_v11 (by decide)).trans ((pre_keep _ _ h0 h1).trans (mid_keep _).symm)
  · exact (Cert.KernelIdeal.KRun.W_other m c Cert.KernelIdeal.main_arg2 (by decide)).trans
      ((Cert.KernelIdeal.Gen.V_main_arg2 m c).trans (g2.symm.trans ((pre_arg2 (launchContents m' c)).symm.trans
        (mid_arg2 (after (Cert.ReferenceIdeal.RefRun.preOps (F := Ideal)) (launchContents m' c))).symm)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
